-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v64)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v64) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S2x800000 : Shape := ⟨2, ![2, 800000]⟩
abbrev S256x128 : Shape := ⟨2, ![256, 128]⟩
abbrev S128 : Shape := ⟨1, ![128]⟩
abbrev S128x4 : Shape := ⟨2, ![128, 4]⟩
abbrev S4 : Shape := ⟨1, ![4]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x4 : S_.BroadcastsInDim S128x4 (![] : Fin 0 → Fin S128x4.rank)
  reducesTo_S128x4_S_d0_1 : S128x4.ReducesTo [0, 1] S_
  bcast_S_S4 : S_.BroadcastsInDim S4 (![] : Fin 0 → Fin S4.rank)
  reducesTo_S4_S_d0 : S4.ReducesTo [0] S_

variable [Facts]

def fn_part1 {F : FTy → Type} [FloatOps F] (main_arg5 : FVec F S4 .f32) (main_v13 : IVec S_ 1) (main_v16 : IVec S128x4 1) : IVec S_ 1 :=
  let main_c_5 : IVec S_ 1 := constantI S_ 1 1#1
  let main_v17 : IVec S_ 1 := (fun x v => Host.reduce IntOp.andi x v reducesTo_S128x4_S_d0_1 h_S_) main_v16 main_c_5
  let main_v18 : IVec S_ 1 := andi main_v13 main_v17
  let main_v19 : FVec F S4 .f32 := Host.absf main_arg5
  let main_cst_6 : FVec F S_ .f32 := constant S_ .f32 0x7F800000#32
  let main_v20 : FVec F S4 .f32 := broadcastInDim S4 ![] bcast_S_S4 main_cst_6
  let main_v21 : IVec S4 1 := cmpf .olt main_v19 main_v20
  let main_c_7 : IVec S_ 1 := constantI S_ 1 1#1
  let main_v22 : IVec S_ 1 := (fun x v => Host.reduce IntOp.andi x v reducesTo_S4_S_d0 h_S_) main_v21 main_c_7
  let main_v23 : IVec S_ 1 := andi main_v18 main_v22
  main_v23

def fn {F : FTy → Type} [FloatOps F] (main_arg0 : FVec F S50000x256 .f32) (main_arg1 : IVec S2x800000 32) (main_arg2 : FVec F S256x128 .f32) (main_arg3 : FVec F S128 .f32) (main_arg4 : FVec F S128x4 .f32) (main_arg5 : FVec F S4 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S256x128 .f32 := Host.absf main_arg2
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x4 .f32 := Host.absf main_arg4
  let main_cst_4 : FVec F S_ .f32 := constant S_ .f32 0x7F800000#32
  let main_v15 : FVec F S128x4 .f32 := broadcastInDim S128x4 ![] bcast_S_S128x4 main_cst_4
  let main_v16 : IVec S128x4 1 := cmpf .olt main_v14 main_v15
  fn_part1 (F := F) main_arg5 main_v13 main_v16
-- ==== Kernel.lean ====
abbrev S50000x256 : Shape := ⟨2, ![50000, 256]⟩
abbrev S2x800000 : Shape := ⟨2, ![2, 800000]⟩
abbrev S256x128 : Shape := ⟨2, ![256, 128]⟩
abbrev S128 : Shape := ⟨1, ![128]⟩
abbrev S128x4 : Shape := ⟨2, ![128, 4]⟩
abbrev S4 : Shape := ⟨1, ![4]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x128 : Shape := ⟨2, ![50000, 128]⟩
abbrev S5000x256 : Shape := ⟨2, ![5000, 256]⟩
abbrev S5000x128 : Shape := ⟨2, ![5000, 128]⟩
abbrev S850000x128 : Shape := ⟨2, ![850000, 128]⟩
abbrev S1x128 : Shape := ⟨2, ![1, 128]⟩
abbrev S50000x4 : Shape := ⟨2, ![50000, 4]⟩
abbrev S5000x4 : Shape := ⟨2, ![5000, 4]⟩
abbrev S850000x4 : Shape := ⟨2, ![850000, 4]⟩
abbrev S1x4 : Shape := ⟨2, ![1, 4]⟩

abbrev nBuf : Space → Nat
  | .hbm => 89
  | .vmem => 10
  | .smem => 0
  | _ => 0

abbrev bufTy : (tb : Table) → Fin (tcTables nBuf tb) → BufTy
  | .hbm, ⟨0, _⟩ => ⟨S50000x256, .f32⟩
  | .hbm, ⟨1, _⟩ => ⟨S2x800000, .i32⟩
  | .hbm, ⟨2, _⟩ => ⟨S256x128, .f32⟩
  | .hbm, ⟨3, _⟩ => ⟨S128, .f32⟩
  | .hbm, ⟨4, _⟩ => ⟨S128x4, .f32⟩
  | .hbm, ⟨5, _⟩ => ⟨S4, .f32⟩
  | .hbm, ⟨6, _⟩ => ⟨S50000, .i32⟩
  | .hbm, ⟨7, _⟩ => ⟨S1x800000, .i32⟩
  | .hbm, ⟨8, _⟩ => ⟨S800000, .i32⟩
  | .hbm, ⟨9, _⟩ => ⟨S850000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .i32⟩
  | .hbm, ⟨28, _⟩ => ⟨S850000, .i32⟩
  | .hbm, ⟨29, _⟩ => ⟨S850000, .i1⟩
  | .hbm, ⟨30, _⟩ => ⟨S_, .i32⟩
  | .hbm, ⟨31, _⟩ => ⟨S850000, .i32⟩
  | .hbm, ⟨32, _⟩ => ⟨S850000, .i32⟩
  | .hbm, ⟨33, _⟩ => ⟨S850000, .i32⟩
  | .hbm, ⟨34, _⟩ => ⟨S850000x1, .i32⟩
  | .hbm, ⟨35, _⟩ => ⟨S850000, .f32⟩
  | .hbm, ⟨36, _⟩ => ⟨S_, .i32⟩
  | .hbm, ⟨37, _⟩ => ⟨S850000, .i32⟩
  | .hbm, ⟨38, _⟩ => ⟨S850000, .i1⟩
  | .hbm, ⟨39, _⟩ => ⟨S_, .i32⟩
  | .hbm, ⟨40, _⟩ => ⟨S850000, .i32⟩
  | .hbm, ⟨41, _⟩ => ⟨S850000, .i32⟩
  | .hbm, ⟨42, _⟩ => ⟨S850000, .i32⟩
  | .hbm, ⟨43, _⟩ => ⟨S850000x1, .i32⟩
  | .hbm, ⟨44, _⟩ => ⟨S850000, .f32⟩
  | .hbm, ⟨45, _⟩ => ⟨S850000, .f32⟩
  | .hbm, ⟨46, _⟩ => ⟨S50000x128, .f32⟩
  | .hbm, ⟨47, _⟩ => ⟨S_, .i32⟩
  | .hbm, ⟨48, _⟩ => ⟨S850000, .i32⟩
  | .hbm, ⟨49, _⟩ => ⟨S850000, .i1⟩
  | .hbm, ⟨50, _⟩ => ⟨S_, .i32⟩
  | .hbm, ⟨51, _⟩ => ⟨S850000, .i32⟩
  | .hbm, ⟨52, _⟩ => ⟨S850000, .i32⟩
  | .hbm, ⟨53, _⟩ => ⟨S850000, .i32⟩
  | .hbm, ⟨54, _⟩ => ⟨S850000x1, .i32⟩
  | .hbm, ⟨55, _⟩ => ⟨S850000x128, .f32⟩
  | .hbm, ⟨56, _⟩ => ⟨S850000x1, .f32⟩
  | .hbm, ⟨57, _⟩ => ⟨S850000x128, .f32⟩
  | .hbm, ⟨58, _⟩ => ⟨S850000x128, .f32⟩
  | .hbm, ⟨59, _⟩ => ⟨S_, .f32⟩
  | .hbm, ⟨60, _⟩ => ⟨S50000x128, .f32⟩
  | .hbm, ⟨61, _⟩ => ⟨S850000x1, .i32⟩
  | .hbm, ⟨62, _⟩ => ⟨S50000x128, .f32⟩
  | .hbm, ⟨63, _⟩ => ⟨S1x128, .f32⟩
  | .hbm, ⟨64, _⟩ => ⟨S50000x128, .f32⟩
  | .hbm, ⟨65, _⟩ => ⟨S50000x128, .f32⟩
  | .hbm, ⟨66, _⟩ => ⟨S_, .f32⟩
  | .hbm, ⟨67, _⟩ => ⟨S50000x128, .f32⟩
  | .hbm, ⟨68, _⟩ => ⟨S50000x128, .f32⟩
  | .hbm, ⟨69, _⟩ => ⟨S50000x4, .f32⟩
  | .hbm, ⟨70, _⟩ => ⟨S_, .i32⟩
  | .hbm, ⟨71, _⟩ => ⟨S850000, .i32⟩
  | .hbm, ⟨72, _⟩ => ⟨S850000, .i1⟩
  | .hbm, ⟨73, _⟩ => ⟨S_, .i32⟩
  | .hbm, ⟨74, _⟩ => ⟨S850000, .i32⟩
  | .hbm, ⟨75, _⟩ => ⟨S850000, .i32⟩
  | .hbm, ⟨76, _⟩ => ⟨S850000, .i32⟩
  | .hbm, ⟨77, _⟩ => ⟨S850000x1, .i32⟩
  | .hbm, ⟨78, _⟩ => ⟨S850000x4, .f32⟩
  | .hbm, ⟨79, _⟩ => ⟨S850000x1, .f32⟩
  | .hbm, ⟨80, _⟩ => ⟨S850000x4, .f32⟩
  | .hbm, ⟨81, _⟩ => ⟨S850000x4, .f32⟩
  | .hbm, ⟨82, _⟩ => ⟨S_, .f32⟩
  | .hbm, ⟨83, _⟩ => ⟨S50000x4, .f32⟩
  | .hbm, ⟨84, _⟩ => ⟨S850000x1, .i32⟩
  | .hbm, ⟨85, _⟩ => ⟨S50000x4, .f32⟩
  | .hbm, ⟨86, _⟩ => ⟨S1x4, .f32⟩
  | .hbm, ⟨87, _⟩ => ⟨S50000x4, .f32⟩
  | .hbm, ⟨88, _⟩ => ⟨S50000x4, .f32⟩
  | .local _ .vmem, ⟨0, _⟩ => ⟨S5000x256, .f32⟩
  | .local _ .vmem, ⟨1, _⟩ => ⟨S5000x256, .f32⟩
  | .local _ .vmem, ⟨2, _⟩ => ⟨S256x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S128x4, .f32⟩
  | .local _ .vmem, ⟨8, _⟩ => ⟨S5000x4, .f32⟩
  | .local _ .vmem, ⟨9, _⟩ => ⟨S5000x4, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x4 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x4 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S5000x128_S5000x128_0_0 : ∀ a, (![0, 0] : Fin 2 → Nat) a + S5000x128.size a ≤ S5000x128.size a
  h_S5000x128 : 0 < S5000x128.numel
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  shapeCasts_S5000x128_S5000x128 : S5000x128.ShapeCasts S5000x128
  inb_S128x4_S128x4_0_0 : ∀ a, (![0, 0] : Fin 2 → Nat) a + S128x4.size a ≤ S128x4.size a
  h_S128x4 : 0 < S128x4.numel
  inb_S5000x4_S5000x4_0_0 : ∀ a, (![0, 0] : Fin 2 → Nat) a + S5000x4.size a ≤ S5000x4.size a
  h_S5000x4 : 0 < S5000x4.numel
  bcast_S850000x1_S850000x4_0_1 : S850000x1.BroadcastsInDim S850000x4 (![0, 1] : Fin 2 → Fin S850000x4.rank)
  bcast_S_S50000x4 : S_.BroadcastsInDim S50000x4 (![] : Fin 0 → Fin S50000x4.rank)
  bcast_S4_S1x4_1 : S4.BroadcastsInDim S1x4 (![1] : Fin 1 → Fin S1x4.rank)
  bcast_S1x4_S50000x4_0_1 : S1x4.BroadcastsInDim S50000x4 (![0, 1] : Fin 2 → Fin S50000x4.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S5000x256_S256x128_S5000x128_1_0_0_1_n_n_wf : DotDims.WF S5000x256 S256x128 S5000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S5000x128_S128x4_S5000x4_1_0_0_1_n_n_wf : DotDims.WF S5000x128 S128x4 S5000x4 [1] [0] [0] [1] [] []
  gather_S50000x4_S850000x1_S850000x4_1_0_n_n_0_1_14_wf : GatherDims.WF S50000x4 S850000x1 S850000x4 [1] [0] [] [0] [] 1 ![1, 4]
  scatter_S50000x4_S850000x1_S850000x4_1_0_0_1_wf : ScatterDims.WF S50000x4 S850000x1 S850000x4 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S50000x256.size a
  hwx0_0 : ∀ i : grid0.Coords, EltTy.bits .f32 = 32 ∨ (Rect.block (s := S50000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x4.size a ≤ S128x4.size a
  hwx1_1 : ∀ i : grid1.Coords, EltTy.bits .f32 = 32 ∨ (Rect.block (s := S128x4) S128x4.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x4.size a ≤ S50000x4.size a
  hwx1_2 : ∀ i : grid1.Coords, EltTy.bits .f32 = 32 ∨ (Rect.block (s := S50000x4) S5000x4.size (cc1_transform_2 i) (hinb1_2 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S5000x128_S128x4_S5000x4_1_0_0_1_n_n : DotDims S5000x128 S128x4 S5000x4 where
  lhsContracting := [1]
  rhsContracting := [0]
  lhsNonContracting := [0]
  rhsNonContracting := [1]
  lhsBatch := []
  rhsBatch := []
  wf := dot_S5000x128_S128x4_S5000x4_1_0_0_1_n_n_wf
def gather_S50000x4_S850000x1_S850000x4_1_0_n_n_0_1_14 : GatherDims S50000x4 S850000x1 S850000x4 where
  offsetDims := [1]
  collapsedSliceDims := [0]
  operandBatchingDims := []
  startIndicesBatchingDims := []
  startIndexMap := [0]
  indexVectorDim := 1
  sliceSizes := ![1, 4]
  wf := gather_S50000x4_S850000x1_S850000x4_1_0_n_n_0_1_14_wf
def scatter_S50000x4_S850000x1_S850000x4_1_0_0_1 : ScatterDims S50000x4 S850000x1 S850000x4 where
  updateWindowDims := [1]
  insertedWindowDims := [0]
  scatterDimsToOperandDims := [0]
  indexVectorDim := 1
  wf := scatter_S50000x4_S850000x1_S850000x4_1_0_0_1_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v47) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S128x4.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v48) S5000x4.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S50000x256 : Shape := ⟨2, ![50000, 256]⟩
abbrev S2x800000 : Shape := ⟨2, ![2, 800000]⟩
abbrev S256x128 : Shape := ⟨2, ![256, 128]⟩
abbrev S128 : Shape := ⟨1, ![128]⟩
abbrev S128x4 : Shape := ⟨2, ![128, 4]⟩
abbrev S4 : Shape := ⟨1, ![4]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x128 : Shape := ⟨2, ![50000, 128]⟩
abbrev S850000x128 : Shape := ⟨2, ![850000, 128]⟩
abbrev S1x128 : Shape := ⟨2, ![1, 128]⟩
abbrev S50000x4 : Shape := ⟨2, ![50000, 4]⟩
abbrev S850000x4 : Shape := ⟨2, ![850000, 4]⟩
abbrev S1x4 : Shape := ⟨2, ![1, 4]⟩

abbrev nBuf : Space → Nat
  | .hbm => 89
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S2x800000, .i32⟩
  | .hbm, ⟨2, _⟩ => ⟨S256x128, .f32⟩
  | .hbm, ⟨3, _⟩ => ⟨S128, .f32⟩
  | .hbm, ⟨4, _⟩ => ⟨S128x4, .f32⟩
  | .hbm, ⟨5, _⟩ => ⟨S4, .f32⟩
  | .hbm, ⟨6, _⟩ => ⟨S50000, .i32⟩
  | .hbm, ⟨7, _⟩ => ⟨S1x800000, .i32⟩
  | .hbm, ⟨8, _⟩ => ⟨S800000, .i32⟩
  | .hbm, ⟨9, _⟩ => ⟨S850000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .i32⟩
  | .hbm, ⟨28, _⟩ => ⟨S850000, .i32⟩
  | .hbm, ⟨29, _⟩ => ⟨S850000, .i1⟩
  | .hbm, ⟨30, _⟩ => ⟨S_, .i32⟩
  | .hbm, ⟨31, _⟩ => ⟨S850000, .i32⟩
  | .hbm, ⟨32, _⟩ => ⟨S850000, .i32⟩
  | .hbm, ⟨33, _⟩ => ⟨S850000, .i32⟩
  | .hbm, ⟨34, _⟩ => ⟨S850000x1, .i32⟩
  | .hbm, ⟨35, _⟩ => ⟨S850000, .f32⟩
  | .hbm, ⟨36, _⟩ => ⟨S_, .i32⟩
  | .hbm, ⟨37, _⟩ => ⟨S850000, .i32⟩
  | .hbm, ⟨38, _⟩ => ⟨S850000, .i1⟩
  | .hbm, ⟨39, _⟩ => ⟨S_, .i32⟩
  | .hbm, ⟨40, _⟩ => ⟨S850000, .i32⟩
  | .hbm, ⟨41, _⟩ => ⟨S850000, .i32⟩
  | .hbm, ⟨42, _⟩ => ⟨S850000, .i32⟩
  | .hbm, ⟨43, _⟩ => ⟨S850000x1, .i32⟩
  | .hbm, ⟨44, _⟩ => ⟨S850000, .f32⟩
  | .hbm, ⟨45, _⟩ => ⟨S850000, .f32⟩
  | .hbm, ⟨46, _⟩ => ⟨S50000x128, .f32⟩
  | .hbm, ⟨47, _⟩ => ⟨S_, .i32⟩
  | .hbm, ⟨48, _⟩ => ⟨S850000, .i32⟩
  | .hbm, ⟨49, _⟩ => ⟨S850000, .i1⟩
  | .hbm, ⟨50, _⟩ => ⟨S_, .i32⟩
  | .hbm, ⟨51, _⟩ => ⟨S850000, .i32⟩
  | .hbm, ⟨52, _⟩ => ⟨S850000, .i32⟩
  | .hbm, ⟨53, _⟩ => ⟨S850000, .i32⟩
  | .hbm, ⟨54, _⟩ => ⟨S850000x1, .i32⟩
  | .hbm, ⟨55, _⟩ => ⟨S850000x128, .f32⟩
  | .hbm, ⟨56, _⟩ => ⟨S850000x1, .f32⟩
  | .hbm, ⟨57, _⟩ => ⟨S850000x128, .f32⟩
  | .hbm, ⟨58, _⟩ => ⟨S850000x128, .f32⟩
  | .hbm, ⟨59, _⟩ => ⟨S_, .f32⟩
  | .hbm, ⟨60, _⟩ => ⟨S50000x128, .f32⟩
  | .hbm, ⟨61, _⟩ => ⟨S850000x1, .i32⟩
  | .hbm, ⟨62, _⟩ => ⟨S50000x128, .f32⟩
  | .hbm, ⟨63, _⟩ => ⟨S1x128, .f32⟩
  | .hbm, ⟨64, _⟩ => ⟨S50000x128, .f32⟩
  | .hbm, ⟨65, _⟩ => ⟨S50000x128, .f32⟩
  | .hbm, ⟨66, _⟩ => ⟨S_, .f32⟩
  | .hbm, ⟨67, _⟩ => ⟨S50000x128, .f32⟩
  | .hbm, ⟨68, _⟩ => ⟨S50000x128, .f32⟩
  | .hbm, ⟨69, _⟩ => ⟨S50000x4, .f32⟩
  | .hbm, ⟨70, _⟩ => ⟨S_, .i32⟩
  | .hbm, ⟨71, _⟩ => ⟨S850000, .i32⟩
  | .hbm, ⟨72, _⟩ => ⟨S850000, .i1⟩
  | .hbm, ⟨73, _⟩ => ⟨S_, .i32⟩
  | .hbm, ⟨74, _⟩ => ⟨S850000, .i32⟩
  | .hbm, ⟨75, _⟩ => ⟨S850000, .i32⟩
  | .hbm, ⟨76, _⟩ => ⟨S850000, .i32⟩
  | .hbm, ⟨77, _⟩ => ⟨S850000x1, .i32⟩
  | .hbm, ⟨78, _⟩ => ⟨S850000x4, .f32⟩
  | .hbm, ⟨79, _⟩ => ⟨S850000x1, .f32⟩
  | .hbm, ⟨80, _⟩ => ⟨S850000x4, .f32⟩
  | .hbm, ⟨81, _⟩ => ⟨S850000x4, .f32⟩
  | .hbm, ⟨82, _⟩ => ⟨S_, .f32⟩
  | .hbm, ⟨83, _⟩ => ⟨S50000x4, .f32⟩
  | .hbm, ⟨84, _⟩ => ⟨S850000x1, .i32⟩
  | .hbm, ⟨85, _⟩ => ⟨S50000x4, .f32⟩
  | .hbm, ⟨86, _⟩ => ⟨S1x4, .f32⟩
  | .hbm, ⟨87, _⟩ => ⟨S50000x4, .f32⟩
  | .hbm, ⟨88, _⟩ => ⟨S50000x4, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S850000x1_S850000x4_0_1 : S850000x1.BroadcastsInDim S850000x4 (![0, 1] : Fin 2 → Fin S850000x4.rank)
  bcast_S_S50000x4 : S_.BroadcastsInDim S50000x4 (![] : Fin 0 → Fin S50000x4.rank)
  bcast_S4_S1x4_1 : S4.BroadcastsInDim S1x4 (![1] : Fin 1 → Fin S1x4.rank)
  bcast_S1x4_S50000x4_0_1 : S1x4.BroadcastsInDim S50000x4 (![0, 1] : Fin 2 → Fin S50000x4.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x256_S256x128_S50000x128_1_0_0_1_n_n_wf : DotDims.WF S50000x256 S256x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x128_S128x4_S50000x4_1_0_0_1_n_n_wf : DotDims.WF S50000x128 S128x4 S50000x4 [1] [0] [0] [1] [] []
  gather_S50000x4_S850000x1_S850000x4_1_0_n_n_0_1_14_wf : GatherDims.WF S50000x4 S850000x1 S850000x4 [1] [0] [] [0] [] 1 ![1, 4]
  scatter_S50000x4_S850000x1_S850000x4_1_0_0_1_wf : ScatterDims.WF S50000x4 S850000x1 S850000x4 [1] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x128_S128x4_S50000x4_1_0_0_1_n_n : DotDims S50000x128 S128x4 S50000x4 where
  lhsContracting := [1]
  rhsContracting := [0]
  lhsNonContracting := [0]
  rhsNonContracting := [1]
  lhsBatch := []
  rhsBatch := []
  wf := dot_S50000x128_S128x4_S50000x4_1_0_0_1_n_n_wf
def gather_S50000x4_S850000x1_S850000x4_1_0_n_n_0_1_14 : GatherDims S50000x4 S850000x1 S850000x4 where
  offsetDims := [1]
  collapsedSliceDims := [0]
  operandBatchingDims := []
  startIndicesBatchingDims := []
  startIndexMap := [0]
  indexVectorDim := 1
  sliceSizes := ![1, 4]
  wf := gather_S50000x4_S850000x1_S850000x4_1_0_n_n_0_1_14_wf
def scatter_S50000x4_S850000x1_S850000x4_1_0_0_1 : ScatterDims S50000x4 S850000x1 S850000x4 where
  updateWindowDims := [1]
  insertedWindowDims := [0]
  scatterDimsToOperandDims := [0]
  indexVectorDim := 1
  wf := scatter_S50000x4_S850000x1_S850000x4_1_0_0_1_wf

class Facts : Prop extends Facts₀ where

variable [Facts]
-- ==== Proof.GcnLayers.lean ====
/-
  The graph convolution around its two matrix products, as whole-array functions.

  The graph has 50000 nodes and 800000 directed edges (row 0 of the edge table the sources, row 1 the targets); every node
  gets a self-loop, which makes 850000 messages. With d(v) the number of messages arriving at v, a message from u to v
  carries the weight w = d(u)^(-1/2) · d(v)^(-1/2) (zero where a degree is zero). One layer takes a table P of node
  features (the product of the previous features with the layer's weights), sends along every message the row P[u] times
  the message's weight, sums at every node the rows that arrive, and adds the bias; the first layer then takes the positive
  part. Neither the weights nor the summation look inside P: a layer is a function of the PRODUCT it is given, whoever
  computed that product. That is all this module says; the definitions below are the host operations of each stretch
  composed, with the product left as the argument.
-/
import proofs.«179782_j67757404062361_1_alg».proof.Proof.Gen.KernelIdeal
import Idealize.ShloMosaic.PureOps.Ideal

noncomputable section

namespace Cert.Gcn

open Idealize.ShloMosaic Cert.KernelIdeal Cert.KernelIdeal.Facts₀ Cert.KernelIdeal.Facts

variable {F : FTy → Type} [FloatOps F]

/-- An index list with its negative entries counted from the end: `s + 50000` where `s < 0`, else `s`. -/
def wrapIdx (s : (⟨S850000, .i32⟩ : BufTy).Contents (Elt F)) : (⟨S850000, .i32⟩ : BufTy).Contents (Elt F) :=
  select (cmpi .slt s (broadcastInDim S850000 ![] bcast_S_S850000 (constantI S_ 32 0#32)))
    (addi s (broadcastInDim S850000 ![] bcast_S_S850000 (constantI S_ 32 50000#32))) s

/-- The messages' sources: the edge table's row 0, then the 50000 self-loops. -/
def srcOf (e : (⟨S2x800000, .i32⟩ : BufTy).Contents (Elt F)) : (⟨S850000, .i32⟩ : BufTy).Contents (Elt F) :=
  concatenate S850000 0 [⟨S800000, (shapeCast _ (extractStridedSlice S1x800000 ![0, 0] e slices_S2x800000_S1x800000_0_0) shapeCasts_S1x800000_S800000)⟩, ⟨S50000, (iotaInDim S50000 32 0)⟩] concatenates_S800000_S50000_S850000_d0

/-- The messages' targets: the edge table's row 1, then the 50000 self-loops. -/
def dstOf (e : (⟨S2x800000, .i32⟩ : BufTy).Contents (Elt F)) : (⟨S850000, .i32⟩ : BufTy).Contents (Elt F) :=
  concatenate S850000 0 [⟨S800000, (shapeCast _ (extractStridedSlice S1x800000 ![1, 0] e slices_S2x800000_S1x800000_1_0) shapeCasts_S1x800000_S800000)⟩, ⟨S50000, (iotaInDim S50000 32 0)⟩] concatenates_S800000_S50000_S850000_d0

/-- Every node's degree (one added per message arriving) to the power -1/2, zero where the degree is not positive. -/
def invSqrtDeg (dst : (⟨S850000, .i32⟩ : BufTy).Contents (Elt F)) : (⟨S50000, .f32⟩ : BufTy).Contents (Elt F) :=
  select
    (cmpf (F := F) .ogt
      (Host.scatterAdd scatter_S50000_S850000x1_S850000_n_0_0_1 (broadcastInDim S50000 ![] bcast_S_S50000 (constant S_ .f32 0x00000000#32)) (broadcastInDim S850000x1 ![0] bcast_S850000_S850000x1_0 dst) (broadcastInDim S850000 ![] bcast_S_S850000 (constant S_ .f32 0x3F800000#32)))
      (broadcastInDim S50000 ![] bcast_S_S50000 (constant S_ .f32 0x00000000#32)))
    (Host.rsqrt
      (Host.scatterAdd scatter_S50000_S850000x1_S850000_n_0_0_1 (broadcastInDim S50000 ![] bcast_S_S50000 (constant S_ .f32 0x00000000#32)) (broadcastInDim S850000x1 ![0] bcast_S850000_S850000x1_0 dst) (broadcastInDim S850000 ![] bcast_S_S850000 (constant S_ .f32 0x3F800000#32))))
    (broadcastInDim S50000 ![] bcast_S_S50000 (constant S_ .f32 0x00000000#32))

/-- Every message's weight: the two ends' inverse square-root degrees multiplied. -/
def weightOf (src dst : (⟨S850000, .i32⟩ : BufTy).Contents (Elt F)) : (⟨S850000, .f32⟩ : BufTy).Contents (Elt F) :=
  mulf
    (Host.gather gather_S50000_S850000x1_S850000_n_0_n_n_0_1_1 (invSqrtDeg dst) (broadcastInDim S850000x1 ![0] bcast_S850000_S850000x1_0 (wrapIdx src)))
    (Host.gather gather_S50000_S850000x1_S850000_n_0_n_n_0_1_1 (invSqrtDeg dst) (broadcastInDim S850000x1 ![0] bcast_S850000_S850000x1_0 (wrapIdx dst)))

/-- The first layer after its product `p` (50000 × 128): rows of `p` gathered along the messages, weighted, summed at the
    targets, the bias added to every row, the positive part taken. -/
def hiddenOf (p : (⟨S50000x128, .f32⟩ : BufTy).Contents (Elt F)) (src : (⟨S850000, .i32⟩ : BufTy).Contents (Elt F))
    (w : (⟨S850000, .f32⟩ : BufTy).Contents (Elt F)) (dst : (⟨S850000, .i32⟩ : BufTy).Contents (Elt F))
    (b : (⟨S128, .f32⟩ : BufTy).Contents (Elt F)) : (⟨S50000x128, .f32⟩ : BufTy).Contents (Elt F) :=
  maximumf
    (addf
      (Host.scatterAdd scatter_S50000x128_S850000x1_S850000x128_1_0_0_1 (broadcastInDim S50000x128 ![] bcast_S_S50000x128 (constant S_ .f32 0x00000000#32)) (broadcastInDim S850000x1 ![0] bcast_S850000_S850000x1_0 dst)
        (mulf (Host.gather gather_S50000x128_S850000x1_S850000x128_1_0_n_n_0_1_1128 p (broadcastInDim S850000x1 ![0] bcast_S850000_S850000x1_0 (wrapIdx src)))
          (broadcastInDim S850000x128 ![0, 1] bcast_S850000x1_S850000x128_0_1 (broadcastInDim S850000x1 ![0] bcast_S850000_S850000x1_0 w))))
      (broadcastInDim S50000x128 ![0, 1] bcast_S1x128_S50000x128_0_1 (broadcastInDim S1x128 ![1] bcast_S128_S1x128_1 b)))
    (broadcastInDim S50000x128 ![] bcast_S_S50000x128 (constant S_ .f32 0x00000000#32))

/-- The second layer after its product `q` (50000 × 4): the same gathering, weighting and summing, and the bias. -/
def outOf (q : (⟨S50000x4, .f32⟩ : BufTy).Contents (Elt F)) (src : (⟨S850000, .i32⟩ : BufTy).Contents (Elt F))
    (w : (⟨S850000, .f32⟩ : BufTy).Contents (Elt F)) (dst : (⟨S850000, .i32⟩ : BufTy).Contents (Elt F))
    (b : (⟨S4, .f32⟩ : BufTy).Contents (Elt F)) : (⟨S50000x4, .f32⟩ : BufTy).Contents (Elt F) :=
  addf
    (Host.scatterAdd scatter_S50000x4_S850000x1_S850000x4_1_0_0_1 (broadcastInDim S50000x4 ![] bcast_S_S50000x4 (constant S_ .f32 0x00000000#32)) (broadcastInDim S850000x1 ![0] bcast_S850000_S850000x1_0 dst)
      (mulf (Host.gather gather_S50000x4_S850000x1_S850000x4_1_0_n_n_0_1_14 q (broadcastInDim S850000x1 ![0] bcast_S850000_S850000x1_0 (wrapIdx src)))
        (broadcastInDim S850000x4 ![0, 1] bcast_S850000x1_S850000x4_0_1 (broadcastInDim S850000x1 ![0] bcast_S850000_S850000x1_0 w))))
    (broadcastInDim S50000x4 ![0, 1] bcast_S1x4_S50000x4_0_1 (broadcastInDim S1x4 ![1] bcast_S4_S1x4_1 b))

/-! ## The two products and the whole convolution, at the ideal values -/

/-- The node features (50000 × 256) times the first layer's weights (256 × 128): the host's one whole product. -/
def product1 (X : FVec Ideal S50000x256 .f32) (W : FVec Ideal S256x128 .f32) : FVec Ideal S50000x128 .f32 :=
  Host.dotGeneral (DotDims.plain 50000 256 128) none X W

/-- The hidden features (50000 × 128) times the second layer's weights (128 × 4): the host's one whole product. -/
def product2 (X : FVec Ideal S50000x128 .f32) (W : FVec Ideal S128x4 .f32) : FVec Ideal S50000x4 .f32 :=
  Host.dotGeneral (DotDims.plain 50000 128 4) none X W

/-- The two-layer graph convolution of the arguments: features `x`, edge table `e`, the two layers' weights and biases.
    Both layers use the same sources, targets and message weights, all read off the edge table. -/
def convolution (x : (⟨S50000x256, .f32⟩ : BufTy).Contents (Elt Ideal)) (e : (⟨S2x800000, .i32⟩ : BufTy).Contents (Elt Ideal))
    (w1 : (⟨S256x128, .f32⟩ : BufTy).Contents (Elt Ideal)) (b1 : (⟨S128, .f32⟩ : BufTy).Contents (Elt Ideal))
    (w2 : (⟨S128x4, .f32⟩ : BufTy).Contents (Elt Ideal)) (b2 : (⟨S4, .f32⟩ : BufTy).Contents (Elt Ideal)) :
    (⟨S50000x4, .f32⟩ : BufTy).Contents (Elt Ideal) :=
  outOf (product2 (hiddenOf (product1 x w1) (srcOf e) (weightOf (srcOf e) (dstOf e)) (dstOf e) b1) w2)
    (srcOf e) (weightOf (srcOf e) (dstOf e)) (dstOf e) b2

end Cert.Gcn

end
-- ==== Proof.RefValue.lean ====
/-
  The reference program computes the same two-layer graph convolution.

  The reference is the host operations alone: it prepares the graph exactly as the kernel program does, and where the
  kernel program launches a region it takes the host's whole product of the same two arrays. Its run states the result
  as the operations' composed term of the arguments; that term is, reading it from the outside in, the second layer of the
  product of (the first layer of the product of the features with the first weights) with the second weights — the
  convolution's definition with every name unfolded, the shapes and index records of the two programs being the same
  data. No arithmetic is needed: both sides are one expression.
-/
import proofs.«179782_j67757404062361_1_alg».proof.Proof.RefRun
import proofs.«179782_j67757404062361_1_alg».proof.Proof.GcnLayers

set_option maxRecDepth 16384

noncomputable section

namespace Cert.ReferenceIdeal.Whole

open Idealize.ShloMosaic Idealize.ShloMosaic.TcCoe Idealize.SL.Sem
open Cert.ReferenceIdeal Cert.ReferenceIdeal.Gen

variable (m : (ℓ : Loc nD τ sig) → Buf (Elt Ideal) ℓ)

/-- The run's result term is the convolution of the arguments as launched. -/
theorem result_eq (c : Dev nD) : Cert.ReferenceIdeal.ValueP.res_main_v64 m c
    = Cert.Gcn.convolution (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  unfold Cert.ReferenceIdeal.ValueP.res_main_v64
  rfl

end Cert.ReferenceIdeal.Whole

end
-- ==== Proof.KernelStretches.lean ====
/-
  The kernel program's host stretches, read back as the layers' functions.

  Between the launch and the first matrix product the program only prepares the graph: the messages' sources and targets
  and their weights, all functions of the edge table alone. Between the two products it runs the first layer on the first
  product, and after the second product the second layer on it. Each statement below says what one stretch leaves in a
  buffer a later step reads, as a function of what the stretch found in the buffers it reads — for ANY contents found, so
  that the same statement serves wherever the stretch is entered from. A buffer the stretch does not write keeps what it
  held.
-/
import proofs.«179782_j67757404062361_1_alg».proof.Proof.Gen.KernelIdeal.Launch
import proofs.«179782_j67757404062361_1_alg».proof.Proof.GcnLayers
import Idealize.ShloMosaic.Lib.StableHlo.Run

noncomputable section

namespace Cert.KernelIdeal.HostStretch

open Idealize.ShloMosaic Idealize.ShloMosaic.StableHlo Idealize.ShloMosaic.TcCoe Idealize.SL.Sem
open Cert.KernelIdeal Cert.KernelIdeal.Gen Cert.Gcn

variable {F : FTy → Type} [FloatOps F]
variable (V : Valuation τ sig (Elt F))

/-! ## Before the first product: the graph's preparation -/

/-- The contents after the three stretches that come before the first product. -/
abbrev prepared : Valuation τ sig (Elt F) := after hostOps0_2 (after hostOps0_1 (after hostOps0 V))

set_option maxRecDepth 8192 in
/-- The messages' sources. -/
theorem prepared_src : prepared V (Proc.devRef .tc main_v3) = srcOf (V (Proc.devRef .tc main_arg1)) := by
  after_results_simp <;> rfl

set_option maxRecDepth 8192 in
/-- The messages' targets. -/
theorem prepared_dst : prepared V (Proc.devRef .tc main_v6) = dstOf (V (Proc.devRef .tc main_arg1)) := by
  after_results_simp <;> rfl

set_option maxRecDepth 8192 in
/-- The messages' weights. -/
theorem prepared_weight : prepared V (Proc.devRef .tc main_v29)
    = weightOf (srcOf (V (Proc.devRef .tc main_arg1))) (dstOf (V (Proc.devRef .tc main_arg1))) := by
  after_results_simp <;> rfl

set_option maxRecDepth 8192 in
/-- The preparation writes no argument of @main. -/
theorem prepared_arg0 : prepared V (Proc.devRef .tc main_arg0) = V (Proc.devRef .tc main_arg0) := by after_results_simp <;> rfl
set_option maxRecDepth 8192 in
theorem prepared_arg2 : prepared V (Proc.devRef .tc main_arg2) = V (Proc.devRef .tc main_arg2) := by after_results_simp <;> rfl
set_option maxRecDepth 8192 in
theorem prepared_arg3 : prepared V (Proc.devRef .tc main_arg3) = V (Proc.devRef .tc main_arg3) := by after_results_simp <;> rfl
set_option maxRecDepth 8192 in
theorem prepared_arg4 : prepared V (Proc.devRef .tc main_arg4) = V (Proc.devRef .tc main_arg4) := by after_results_simp <;> rfl
set_option maxRecDepth 8192 in
theorem prepared_arg5 : prepared V (Proc.devRef .tc main_arg5) = V (Proc.devRef .tc main_arg5) := by after_results_simp <;> rfl

/-! ## Between the products: the first layer -/

/-- The contents after the two stretches between the products. -/
abbrev layered : Valuation τ sig (Elt F) := after hostOps1_1 (after hostOps1 V)

set_option maxRecDepth 8192 in
/-- The hidden features: the first layer on whatever the first product's buffer holds. -/
theorem layered_hidden : layered V (Proc.devRef .tc main_v47)
    = hiddenOf (V (Proc.devRef .tc main_v30)) (V (Proc.devRef .tc main_v3)) (V (Proc.devRef .tc main_v29))
        (V (Proc.devRef .tc main_v6)) (V (Proc.devRef .tc main_arg3)) := by
  after_results_simp <;> rfl

set_option maxRecDepth 8192 in
/-- The first layer leaves the graph's preparation and the arguments in place. -/
theorem layered_src : layered V (Proc.devRef .tc main_v3) = V (Proc.devRef .tc main_v3) := by after_results_simp <;> rfl
set_option maxRecDepth 8192 in
theorem layered_dst : layered V (Proc.devRef .tc main_v6) = V (Proc.devRef .tc main_v6) := by after_results_simp <;> rfl
set_option maxRecDepth 8192 in
theorem layered_weight : layered V (Proc.devRef .tc main_v29) = V (Proc.devRef .tc main_v29) := by after_results_simp <;> rfl
set_option maxRecDepth 8192 in
theorem layered_arg4 : layered V (Proc.devRef .tc main_arg4) = V (Proc.devRef .tc main_arg4) := by after_results_simp <;> rfl
set_option maxRecDepth 8192 in
theorem layered_arg5 : layered V (Proc.devRef .tc main_arg5) = V (Proc.devRef .tc main_arg5) := by after_results_simp <;> rfl

/-! ## After the second product: the second layer -/

set_option maxRecDepth 8192 in
/-- The result: the second layer on whatever the second product's buffer holds. -/
theorem finished_out : after hostOps2 V (Proc.devRef .tc main_v64)
    = outOf (V (Proc.devRef .tc main_v48)) (V (Proc.devRef .tc main_v3)) (V (Proc.devRef .tc main_v29))
        (V (Proc.devRef .tc main_v6)) (V (Proc.devRef .tc main_arg5)) := by
  after_results_simp <;> rfl

end Cert.KernelIdeal.HostStretch

end
-- ==== Proof.LibPlainMatmul.lean ====
/-
  A kernel's plain matrix product read at an entry, over the extended reals.

  An [m, k] by [k, n] product accumulated into the zero block has, at entry (a, b), the sum over the contracted
  coordinate c of A (a, c) · B (c, b): the exact contraction has no accumulator left in it (the extended reals have one
  zero) and is the same sum the host's product of the same operands is.
-/
import Idealize.ShloMosaic.Lib.StackMember
import Idealize.ShloMosaic.PureOps.Ideal.Laws

noncomputable section

namespace Cert.Lib

open Idealize.ShloMosaic Idealize.ShloMosaic.ValueIdx

/-- Entry (a, b) of an [m, k] × [k, n] matrix product into a zero accumulator is `∑ c, A (a, c) · B (c, b)`. -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant ⟨2, ![m, n]⟩ .f32 0x00000000#32) (ix2 a b)
      = ∑ c : Fin k, A (ix2 a c) * B (ix2 c b) :=
  (Ideal.matmul_constant_zero_apply (DotDims.plain m k n) prec A B (ix2 a b)).trans
    ((Ideal.dotGeneral_apply (DotDims.plain m k n) prec default A B (ix2 a b)).symm.trans
      (StackMember.dotGeneral_plain_apply prec A B a b))

end Cert.Lib

end
-- ==== Proof.LibRowBlockProduct.lean ====
/-
  A block of rows of a matrix product, over the extended reals.

  Rows off, …, off + m - 1 of X · W depend on those rows of X and on all of W only: entry (off + a, b) of the whole
  product is the sum over the contracted coordinate c of X (off + a, c) · W (c, b), and that is entry (a, b) of the product
  of the m-row block of X with W. So a kernel that multiplies one block of rows at a time (accumulating into zero) writes,
  block by block, the host's one whole product. How a block sits in its array is left to three index maps, about which
  only their coordinates are assumed: the left block's and the result block's rows are shifted by `off`, nothing else
  moves.
-/
import proofs.«179782_j67757404062361_1_alg».proof.Proof.LibPlainMatmul

noncomputable section

namespace Cert.Lib

open Idealize.ShloMosaic Idealize.ShloMosaic.ValueIdx

/-- The product of an m-row block of `X` (rows `off …`) with `W`, accumulated into zero, read at a block index `j`, is the
    whole product `X · W` read where the result block puts `j`. -/
theorem plain_product_row_block {m M k n : Nat} {φ₁ φ₂ : FTy} (prec : Option ContractPrecision)
    (x : FVec Ideal ⟨2, ![m, k]⟩ φ₁) (w : FVec Ideal ⟨2, ![k, n]⟩ φ₂)
    (X : FVec Ideal ⟨2, ![M, k]⟩ φ₁) (W : FVec Ideal ⟨2, ![k, n]⟩ φ₂)
    (ex : (⟨2, ![m, k]⟩ : Shape).Idx → (⟨2, ![M, k]⟩ : Shape).Idx)
    (ew : (⟨2, ![k, n]⟩ : Shape).Idx → (⟨2, ![k, n]⟩ : Shape).Idx)
    (eo : (⟨2, ![m, n]⟩ : Shape).Idx → (⟨2, ![M, n]⟩ : Shape).Idx) (off : Nat)
    (hx : ∀ y, x y = X (ex y)) (hw : ∀ y, w y = W (ew y))
    (hex0 : ∀ y, (ex y 0).val = off + (y 0).val) (hex1 : ∀ y, (ex y 1).val = (y 1).val)
    (hew0 : ∀ y, (ew y 0).val = (y 0).val) (hew1 : ∀ y, (ew y 1).val = (y 1).val)
    (heo0 : ∀ y, (eo y 0).val = off + (y 0).val) (heo1 : ∀ y, (eo y 1).val = (y 1).val)
    (j : (⟨2, ![m, n]⟩ : Shape).Idx) :
    matmul (DotDims.plain m k n) prec x w (constant ⟨2, ![m, n]⟩ .f32 0x00000000#32) j
      = Host.dotGeneral (DotDims.plain M k n) prec X W (eo j) := by
  obtain ⟨a, b, rfl⟩ : ∃ (a : Fin m) (b : Fin n), j = ix2 a b := ⟨j 0, j 1, eq_ix2 j⟩
  -- where the result block puts (a, b): row off + a, column b
  obtain ⟨a', b', hab⟩ : ∃ (a' : Fin M) (b' : Fin n), eo (ix2 a b) = ix2 a' b' :=
    ⟨eo (ix2 a b) 0, eo (ix2 a b) 1, eq_ix2 _⟩
  have ha' : a'.val = off + a.val := by
    have := heo0 (ix2 a b); rw [hab] at this; exact this
  have hb' : b'.val = b.val := by
    have := heo1 (ix2 a b); rw [hab] at this; exact this
  rw [matmul_plain_zero_apply, hab, StackMember.dotGeneral_plain_apply]
  refine Finset.sum_congr rfl fun c _ => ?_
  rw [hx, hw]
  have e1 : ex (ix2 a c) = ix2 a' c := by
    funext q; apply Fin.ext
    match q with
    | ⟨0, _⟩ => exact (hex0 (ix2 a c)).trans ha'.symm
    | ⟨1, _⟩ => exact hex1 (ix2 a c)
  have e2 : ew (ix2 c b) = ix2 c b' := by
    funext q; apply Fin.ext
    match q with
    | ⟨0, _⟩ => exact hew0 (ix2 c b)
    | ⟨1, _⟩ => exact (hew1 (ix2 c b)).trans hb'.symm
  rw [e1, e2]

end Cert.Lib

end
-- ==== Proof.Product0.lean ====
/-
  What the first matrix product's region leaves in its output array.

  The region walks ten grid points; at point t it stages rows 5000·t … 5000·t + 4999 of its left operand (50000 × 256),
  the whole right operand (256 × 128), multiplies them into a zero accumulator (the casts to the narrow float format
  around the product change nothing over the extended reals), and writes the 5000 × 128 result back as rows 5000·t …
  of the output. Rows of a product depend on the same rows of the left operand only, so every written block is the block
  of ONE array — the host's whole product of the two operands as the region found them — and the ten blocks tile the
  output: the array ends holding that product.
-/
import proofs.«179782_j67757404062361_1_alg».proof.Proof.Gen.KernelIdeal.Frame
import proofs.«179782_j67757404062361_1_alg».proof.Proof.LibRowBlockProduct
import proofs.«179782_j67757404062361_1_alg».proof.Proof.GcnLayers
import Idealize.ShloMosaic.Lib.Pipeline.Value

set_option maxRecDepth 16384

noncomputable section

namespace Cert.KernelIdeal.Product0

open Idealize.ShloMosaic Idealize.ShloMosaic.TcCoe Idealize.ShloMosaic.ValueIdx Idealize.SL.Sem
open Idealize.ShloMosaic.Pipeline (Dat)
open Cert.KernelIdeal Cert.KernelIdeal.Gen
open Cert.Gcn (product1)

variable (V : (c : Dev nD) → (b : Ref sig .tc) → Buf (Elt Ideal) ((c : Thread nD τ).loc b))

theorem zeroOffsets : (![0, 0] : Fin 2 → Nat) = fun _ => 0 := funext fun a => by fin_cases a <;> rfl

/-- The printed index maps over the grid: at point t the left operand's and the output's blocks are block t along the
    rows, block 0 along the columns; the right operand's block is always block (0, 0). -/
theorem blockIndices : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is block t of the whole product of the operands as the region found them. -/
theorem flushed_eq (c : Dev nD) (t : Fin cfg0.N) :
    (dat0 V c).flushed 2 t
      = ((cfg0.win 2).blk t).view.read (Elt Ideal) (product1 (V c (Pipeline.arrRef spec0 0)) (V c (Pipeline.arrRef spec0 1))) := by
  show (cfg0.win 2).cut (grid0.coords t) ((dat0 V c).after 2 t) = _
  rw [after0_2]
  unfold out0_2
  rw [View.canon_unit_zero zeroOffsets]
  simp only [View.ld_unit_zero (S := S5000x256) zeroOffsets, View.ld_unit_zero (S := S256x128) zeroOffsets]
  obtain ⟨e0, e1, e2, e3, e4, e5⟩ := blockIndices t
  funext j
  show k0_pay1 (iblk0 V c 0 t) (iblk0 V c 1 t) j
    = product1 (V c (Pipeline.arrRef spec0 0)) (V c (Pipeline.arrRef spec0 1)) (((cfg0.win 2).blk t).view.emb j)
  exact Cert.Lib.plain_product_row_block (m := 5000) (M := 50000) (k := 256) (n := 128) none
    (iblk0 V c 0 t) (iblk0 V c 1 t) (V c (Pipeline.arrRef spec0 0)) (V c (Pipeline.arrRef spec0 1))
    ((cfg0.win 0).blk t).view.emb ((cfg0.win 1).blk t).view.emb ((cfg0.win 2).blk t).view.emb (t.val * 5000)
    (fun _ => rfl) (fun _ => rfl)
    (fun y => by show win0_0.index t (0 : Fin 2) * 5000 + 1 * (y 0).val = t.val * 5000 + (y 0).val; omega)
    (fun y => by show win0_0.index t (1 : Fin 2) * 256 + 1 * (y 1).val = (y 1).val; omega)
    (fun y => by show win0_1.index t (0 : Fin 2) * 256 + 1 * (y 0).val = (y 0).val; omega)
    (fun y => by show win0_1.index t (1 : Fin 2) * 128 + 1 * (y 1).val = (y 1).val; omega)
    (fun y => by show win0_2.index t (0 : Fin 2) * 5000 + 1 * (y 0).val = t.val * 5000 + (y 0).val; omega)
    (fun y => by show win0_2.index t (1 : Fin 2) * 128 + 1 * (y 1).val = (y 1).val; omega)
    j

/-- An index of the output array is in point t's block iff each coordinate is in the block's range on its axis. -/
theorem mem_block (t : Fin cfg0.N) (i : S50000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v30).slice (win0_2.rect t)).set ↔ _
  rw [View.set_slice_whole, Rect.mem_set_unit]
  exact Iff.rfl

/-- The ten blocks tile the output: row r is in the block of point r / 5000. -/
theorem covered (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  have hN : (i 0).val / 5000 < cfg0.N := by show (i 0).val / 5000 < grid0.N; rw [N_0]; omega
  refine ⟨⟨(i 0).val / 5000, hN⟩, flush0_2 _, ?_⟩
  obtain ⟨-, -, -, -, e4, e5⟩ := blockIndices ⟨(i 0).val / 5000, hN⟩
  have e4' : win0_2.index ⟨(i 0).val / 5000, hN⟩ (0 : Fin 2) = (i 0).val / 5000 := e4
  rw [mem_block]
  intro a
  match a with
  | ⟨0, _⟩ => show win0_2.index ⟨(i 0).val / 5000, hN⟩ (0 : Fin 2) * 5000 ≤ (i 0).val ∧ (i 0).val < win0_2.index ⟨(i 0).val / 5000, hN⟩ (0 : Fin 2) * 5000 + 5000; omega
  | ⟨1, _⟩ => show win0_2.index ⟨(i 0).val / 5000, hN⟩ (1 : Fin 2) * 128 ≤ (i 1).val ∧ (i 1).val < win0_2.index ⟨(i 0).val / 5000, hN⟩ (1 : Fin 2) * 128 + 128; omega

/-- The output array after the region: the whole product of the two operand arrays as the region found them. -/
theorem final (c : Dev nD) :
    (dat0 V c).arrAt 2 cfg0.N = product1 (V c (Pipeline.arrRef spec0 0)) (V c (Pipeline.arrRef spec0 1)) :=
  (dat0 V c).arrAt_eq_of_cover 2 _ (fun t _ => flushed_eq V c t) (covered)

end Cert.KernelIdeal.Product0

end
-- ==== Proof.Product1.lean ====
/-
  What the second matrix product's region leaves in its output array.

  The region walks ten grid points; at point t it stages rows 5000·t … 5000·t + 4999 of its left operand (50000 × 128),
  the whole right operand (128 × 4), multiplies them into a zero accumulator (the casts to the narrow float format
  around the product change nothing over the extended reals), and writes the 5000 × 4 result back as rows 5000·t …
  of the output. Rows of a product depend on the same rows of the left operand only, so every written block is the block
  of ONE array — the host's whole product of the two operands as the region found them — and the ten blocks tile the
  output: the array ends holding that product.
-/
import proofs.«179782_j67757404062361_1_alg».proof.Proof.Gen.KernelIdeal.Frame
import proofs.«179782_j67757404062361_1_alg».proof.Proof.LibRowBlockProduct
import proofs.«179782_j67757404062361_1_alg».proof.Proof.GcnLayers
import Idealize.ShloMosaic.Lib.Pipeline.Value

set_option maxRecDepth 16384

noncomputable section

namespace Cert.KernelIdeal.Product1

open Idealize.ShloMosaic Idealize.ShloMosaic.TcCoe Idealize.ShloMosaic.ValueIdx Idealize.SL.Sem
open Idealize.ShloMosaic.Pipeline (Dat)
open Cert.KernelIdeal Cert.KernelIdeal.Gen
open Cert.Gcn (product2)

variable (V : (c : Dev nD) → (b : Ref sig .tc) → Buf (Elt Ideal) ((c : Thread nD τ).loc b))

theorem zeroOffsets : (![0, 0] : Fin 2 → Nat) = fun _ => 0 := funext fun a => by fin_cases a <;> rfl

/-- The body's arithmetic on its two loaded blocks: a cast of the left block to its own shape and the casts of both to the
    narrow float format change nothing over the extended reals; what is left is the plain product into zero. -/
theorem payload_eq (x : FVec Ideal S5000x128 .f32) (w : FVec Ideal S128x4 .f32) :
    k1_pay1 x w = matmul (DotDims.plain 5000 128 4) none (truncf .bf16 x) (truncf .bf16 w)
      (constant ⟨2, ![5000, 4]⟩ .f32 0x00000000#32) := by
  unfold k1_pay1
  rw [shapeCast_self]
  rfl

/-- The printed index maps over the grid: at point t the left operand's and the output's blocks are block t along the
    rows, block 0 along the columns; the right operand's block is always block (0, 0). -/
theorem blockIndices : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point t writes back is block t of the whole product of the operands as the region found them. -/
theorem flushed_eq (c : Dev nD) (t : Fin cfg1.N) :
    (dat1 V c).flushed 2 t
      = ((cfg1.win 2).blk t).view.read (Elt Ideal) (product2 (V c (Pipeline.arrRef spec1 0)) (V c (Pipeline.arrRef spec1 1))) := by
  show (cfg1.win 2).cut (grid1.coords t) ((dat1 V c).after 2 t) = _
  rw [after1_2]
  unfold out1_2
  rw [View.canon_unit_zero zeroOffsets]
  simp only [View.ld_unit_zero (S := S5000x128) zeroOffsets, View.ld_unit_zero (S := S128x4) zeroOffsets]
  obtain ⟨e0, e1, e2, e3, e4, e5⟩ := blockIndices t
  funext j
  show k1_pay1 (iblk1 V c 0 t) (iblk1 V c 1 t) j
    = product2 (V c (Pipeline.arrRef spec1 0)) (V c (Pipeline.arrRef spec1 1)) (((cfg1.win 2).blk t).view.emb j)
  refine (congrFun (payload_eq (iblk1 V c 0 t) (iblk1 V c 1 t)) j).trans ?_
  exact Cert.Lib.plain_product_row_block (m := 5000) (M := 50000) (k := 128) (n := 4) none
    (iblk1 V c 0 t) (iblk1 V c 1 t) (V c (Pipeline.arrRef spec1 0)) (V c (Pipeline.arrRef spec1 1))
    ((cfg1.win 0).blk t).view.emb ((cfg1.win 1).blk t).view.emb ((cfg1.win 2).blk t).view.emb (t.val * 5000)
    (fun _ => rfl) (fun _ => rfl)
    (fun y => by show win1_0.index t (0 : Fin 2) * 5000 + 1 * (y 0).val = t.val * 5000 + (y 0).val; omega)
    (fun y => by show win1_0.index t (1 : Fin 2) * 128 + 1 * (y 1).val = (y 1).val; omega)
    (fun y => by show win1_1.index t (0 : Fin 2) * 128 + 1 * (y 0).val = (y 0).val; omega)
    (fun y => by show win1_1.index t (1 : Fin 2) * 4 + 1 * (y 1).val = (y 1).val; omega)
    (fun y => by show win1_2.index t (0 : Fin 2) * 5000 + 1 * (y 0).val = t.val * 5000 + (y 0).val; omega)
    (fun y => by show win1_2.index t (1 : Fin 2) * 4 + 1 * (y 1).val = (y 1).val; omega)
    j

/-- An index of the output array is in point t's block iff each coordinate is in the block's range on its axis. -/
theorem mem_block (t : Fin cfg1.N) (i : S50000x4.Idx) :
    i ∈ ((cfg1.win 2).blk t).view.set ↔ ∀ a : Fin 2, win1_2.index t a * S5000x4.size a ≤ (i a).val ∧ (i a).val < win1_2.index t a * S5000x4.size a + S5000x4.size a := by
  show i ∈ ((View.whole main_v48).slice (win1_2.rect t)).set ↔ _
  rw [View.set_slice_whole, Rect.mem_set_unit]
  exact Iff.rfl

/-- The ten blocks tile the output: row r is in the block of point r / 5000. -/
theorem covered (i : S50000x4.Idx) :
    ∃ t : Fin cfg1.N, (cfg1.win 2).flush t = true ∧ i ∈ ((cfg1.win 2).blk t).view.set := by
  have hi0 : (i 0).val < 50000 := (i 0).isLt
  have hi1 : (i 1).val < 4 := (i 1).isLt
  have hN : (i 0).val / 5000 < cfg1.N := by show (i 0).val / 5000 < grid1.N; rw [N_1]; omega
  refine ⟨⟨(i 0).val / 5000, hN⟩, flush1_2 _, ?_⟩
  obtain ⟨-, -, -, -, e4, e5⟩ := blockIndices ⟨(i 0).val / 5000, hN⟩
  have e4' : win1_2.index ⟨(i 0).val / 5000, hN⟩ (0 : Fin 2) = (i 0).val / 5000 := e4
  rw [mem_block]
  intro a
  match a with
  | ⟨0, _⟩ => show win1_2.index ⟨(i 0).val / 5000, hN⟩ (0 : Fin 2) * 5000 ≤ (i 0).val ∧ (i 0).val < win1_2.index ⟨(i 0).val / 5000, hN⟩ (0 : Fin 2) * 5000 + 5000; omega
  | ⟨1, _⟩ => show win1_2.index ⟨(i 0).val / 5000, hN⟩ (1 : Fin 2) * 4 ≤ (i 1).val ∧ (i 1).val < win1_2.index ⟨(i 0).val / 5000, hN⟩ (1 : Fin 2) * 4 + 4; omega

/-- The output array after the region: the whole product of the two operand arrays as the region found them. -/
theorem final (c : Dev nD) :
    (dat1 V c).arrAt 2 cfg1.N = product2 (V c (Pipeline.arrRef spec1 0)) (V c (Pipeline.arrRef spec1 1)) :=
  (dat1 V c).arrAt_eq_of_cover 2 _ (fun t _ => flushed_eq V c t) (covered)

end Cert.KernelIdeal.Product1

end
-- ==== Proof.KernelValue.lean ====
/-
  The kernel program's result as one function of its arguments.

  The run's buffer contents at the segment boundaries are a fold through @main: the graph's preparation, the first
  product's region, the first layer, the second product's region, the second layer. Reading the result buffer back
  through that fold, one boundary at a time: the second layer's stretch gives the result as `outOf` of the second
  product's array and of the prepared graph; the second region's array is the whole product of the hidden features with
  the second weights; the hidden features are `hiddenOf` of the first product's array; the first region's array is the
  whole product of the features with the first weights; and the prepared graph and the arguments pass through every
  later step untouched. So at the ideal values the program computes
      outOf ( hiddenOf (x · W1) … b1 · W2 ) … b2
  with the same sources, targets and weights in both layers.
-/
import proofs.«179782_j67757404062361_1_alg».proof.Proof.Gen.KernelIdeal.Frame
import proofs.«179782_j67757404062361_1_alg».proof.Proof.KernelStretches
import proofs.«179782_j67757404062361_1_alg».proof.Proof.Product0
import proofs.«179782_j67757404062361_1_alg».proof.Proof.Product1

set_option maxRecDepth 16384

noncomputable section

namespace Cert.KernelIdeal.Whole

open Idealize.ShloMosaic Idealize.ShloMosaic.TcCoe Idealize.ShloMosaic.StableHlo Idealize.SL.Sem
open Cert.KernelIdeal Cert.KernelIdeal.Gen Cert.KernelIdeal.HostStretch Cert.Gcn

variable (m : (ℓ : Loc nD τ sig) → Buf (Elt Ideal) ℓ) (ρ : Dev nD → PrngReg)

/-! ## When the first product's region is entered: the graph is prepared, the arguments as launched -/

theorem entry0_src (c : Dev nD) : W3 m ρ c (Proc.devRef .tc main_v3) = srcOf (m ((c : Thread nD τ).loc main_arg1)) := prepared_src (W0 m ρ c)
theorem entry0_dst (c : Dev nD) : W3 m ρ c (Proc.devRef .tc main_v6) = dstOf (m ((c : Thread nD τ).loc main_arg1)) := prepared_dst (W0 m ρ c)
theorem entry0_weight (c : Dev nD) : W3 m ρ c (Proc.devRef .tc main_v29)
    = weightOf (srcOf (m ((c : Thread nD τ).loc main_arg1))) (dstOf (m ((c : Thread nD τ).loc main_arg1))) := prepared_weight (W0 m ρ c)
theorem entry0_arg0 (c : Dev nD) : W3 m ρ c (Proc.devRef .tc main_arg0) = m ((c : Thread nD τ).loc main_arg0) := prepared_arg0 (W0 m ρ c)
theorem entry0_arg2 (c : Dev nD) : W3 m ρ c (Proc.devRef .tc main_arg2) = m ((c : Thread nD τ).loc main_arg2) := prepared_arg2 (W0 m ρ c)
theorem entry0_arg3 (c : Dev nD) : W3 m ρ c (Proc.devRef .tc main_arg3) = m ((c : Thread nD τ).loc main_arg3) := prepared_arg3 (W0 m ρ c)
theorem entry0_arg4 (c : Dev nD) : W3 m ρ c (Proc.devRef .tc main_arg4) = m ((c : Thread nD τ).loc main_arg4) := prepared_arg4 (W0 m ρ c)
theorem entry0_arg5 (c : Dev nD) : W3 m ρ c (Proc.devRef .tc main_arg5) = m ((c : Thread nD τ).loc main_arg5) := prepared_arg5 (W0 m ρ c)

/-! ## When it is left: its output array holds the first product, everything else is as entered -/

theorem exit0_product (c : Dev nD) : W4 m ρ c (Proc.devRef .tc main_v30)
    = product1 (m ((c : Thread nD τ).loc main_arg0)) (m ((c : Thread nD τ).loc main_arg2)) := by
  refine (W4_arr m ρ c 2).trans ((Product0.final (V3 m ρ) c).trans ?_)
  show product1 (W3 m ρ c (Proc.devRef .tc main_arg0)) (W3 m ρ c (Proc.devRef .tc main_arg2)) = _
  rw [entry0_arg0, entry0_arg2]
theorem exit0_src (c : Dev nD) : W4 m ρ c (Proc.devRef .tc main_v3) = srcOf (m ((c : Thread nD τ).loc main_arg1)) :=
  (W4_of_ne m ρ c main_v3 (by decide)).trans (entry0_src m ρ c)
theorem exit0_dst (c : Dev nD) : W4 m ρ c (Proc.devRef .tc main_v6) = dstOf (m ((c : Thread nD τ).loc main_arg1)) :=
  (W4_of_ne m ρ c main_v6 (by decide)).trans (entry0_dst m ρ c)
theorem exit0_weight (c : Dev nD) : W4 m ρ c (Proc.devRef .tc main_v29)
    = weightOf (srcOf (m ((c : Thread nD τ).loc main_arg1))) (dstOf (m ((c : Thread nD τ).loc main_arg1))) :=
  (W4_of_ne m ρ c main_v29 (by decide)).trans (entry0_weight m ρ c)
theorem exit0_arg3 (c : Dev nD) : W4 m ρ c (Proc.devRef .tc main_arg3) = m ((c : Thread nD τ).loc main_arg3) :=
  (W4_of_ne m ρ c main_arg3 (by decide)).trans (entry0_arg3 m ρ c)
theorem exit0_arg4 (c : Dev nD) : W4 m ρ c (Proc.devRef .tc main_arg4) = m ((c : Thread nD τ).loc main_arg4) :=
  (W4_of_ne m ρ c main_arg4 (by decide)).trans (entry0_arg4 m ρ c)
theorem exit0_arg5 (c : Dev nD) : W4 m ρ c (Proc.devRef .tc main_arg5) = m ((c : Thread nD τ).loc main_arg5) :=
  (W4_of_ne m ρ c main_arg5 (by decide)).trans (entry0_arg5 m ρ c)

/-! ## When the second product's region is entered: the hidden features are the first layer of the first product -/

/-- The hidden features, of the arguments. -/
abbrev hidden (c : Dev nD) : (⟨S50000x128, .f32⟩ : BufTy).Contents (Elt Ideal) :=
  hiddenOf (product1 (m ((c : Thread nD τ).loc main_arg0)) (m ((c : Thread nD τ).loc main_arg2))) (srcOf (m ((c : Thread nD τ).loc main_arg1)))
    (weightOf (srcOf (m ((c : Thread nD τ).loc main_arg1))) (dstOf (m ((c : Thread nD τ).loc main_arg1)))) (dstOf (m ((c : Thread nD τ).loc main_arg1))) (m ((c : Thread nD τ).loc main_arg3))

theorem entry1_hidden (c : Dev nD) : W6 m ρ c (Proc.devRef .tc main_v47) = hidden m c := by
  refine (layered_hidden (W4 m ρ c)).trans ?_
  rw [exit0_product, exit0_src, exit0_weight, exit0_dst, exit0_arg3]
theorem entry1_src (c : Dev nD) : W6 m ρ c (Proc.devRef .tc main_v3) = srcOf (m ((c : Thread nD τ).loc main_arg1)) :=
  (layered_src (W4 m ρ c)).trans (exit0_src m ρ c)
theorem entry1_dst (c : Dev nD) : W6 m ρ c (Proc.devRef .tc main_v6) = dstOf (m ((c : Thread nD τ).loc main_arg1)) :=
  (layered_dst (W4 m ρ c)).trans (exit0_dst m ρ c)
theorem entry1_weight (c : Dev nD) : W6 m ρ c (Proc.devRef .tc main_v29)
    = weightOf (srcOf (m ((c : Thread nD τ).loc main_arg1))) (dstOf (m ((c : Thread nD τ).loc main_arg1))) :=
  (layered_weight (W4 m ρ c)).trans (exit0_weight m ρ c)
theorem entry1_arg4 (c : Dev nD) : W6 m ρ c (Proc.devRef .tc main_arg4) = m ((c : Thread nD τ).loc main_arg4) :=
  (layered_arg4 (W4 m ρ c)).trans (exit0_arg4 m ρ c)
theorem entry1_arg5 (c : Dev nD) : W6 m ρ c (Proc.devRef .tc main_arg5) = m ((c : Thread nD τ).loc main_arg5) :=
  (layered_arg5 (W4 m ρ c)).trans (exit0_arg5 m ρ c)

/-! ## When it is left: its output array holds the second product -/

theorem exit1_product (c : Dev nD) : W7 m ρ c (Proc.devRef .tc main_v48)
    = product2 (hidden m c) (m ((c : Thread nD τ).loc main_arg4)) := by
  refine (W7_arr m ρ c 2).trans ((Product1.final (V6 m ρ) c).trans ?_)
  show product2 (W6 m ρ c (Proc.devRef .tc main_v47)) (W6 m ρ c (Proc.devRef .tc main_arg4)) = _
  rw [entry1_hidden, entry1_arg4]
theorem exit1_src (c : Dev nD) : W7 m ρ c (Proc.devRef .tc main_v3) = srcOf (m ((c : Thread nD τ).loc main_arg1)) :=
  (W7_of_ne m ρ c main_v3 (by decide)).trans (entry1_src m ρ c)
theorem exit1_dst (c : Dev nD) : W7 m ρ c (Proc.devRef .tc main_v6) = dstOf (m ((c : Thread nD τ).loc main_arg1)) :=
  (W7_of_ne m ρ c main_v6 (by decide)).trans (entry1_dst m ρ c)
theorem exit1_weight (c : Dev nD) : W7 m ρ c (Proc.devRef .tc main_v29)
    = weightOf (srcOf (m ((c : Thread nD τ).loc main_arg1))) (dstOf (m ((c : Thread nD τ).loc main_arg1))) :=
  (W7_of_ne m ρ c main_v29 (by decide)).trans (entry1_weight m ρ c)
theorem exit1_arg5 (c : Dev nD) : W7 m ρ c (Proc.devRef .tc main_arg5) = m ((c : Thread nD τ).loc main_arg5) :=
  (W7_of_ne m ρ c main_arg5 (by decide)).trans (entry1_arg5 m ρ c)

/-! ## At the return -/

/-- The result buffer at the last boundary is the two-layer convolution of the arguments as launched. -/
theorem returned (c : Dev nD) : W8 m ρ c (Proc.devRef .tc main_v64)
    = convolution (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (finished_out (W7 m ρ c)).trans ?_
  rw [exit1_product, exit1_src, exit1_weight, exit1_dst, exit1_arg5]
  rfl

end Cert.KernelIdeal.Whole

end
-- ==== Proof.KernelRun.lean ====
/-
  The kernel program's run, with its result named.

  Every weakly fair execution of @main terminates, and at the end every unscoped buffer holds what the fold through
  @main's segments says it holds at the last boundary. Read at the six argument buffers that gives the frame (the
  arguments as launched); read at the result buffer as well it gives the value: the two-layer graph convolution of the
  arguments (`Whole.returned`).
-/
import proofs.«179782_j67757404062361_1_alg».proof.Proof.Gen.KernelIdeal.Frame
import proofs.«179782_j67757404062361_1_alg».proof.Proof.KernelValue

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- From any memory with zero counters every weakly fair execution of @main terminates, nothing faulting, with the result
    buffer at the two-layer convolution of the arguments and the arguments as launched. -/
theorem run : θ_run defs (onTc (τ := τ) (main (F := Ideal))) ⟨m, fun _ => 0, ρ⟩ (fun r => ∀ c : Dev nD,
      r.2.mem ((c.tc : Thread nD τ).loc main_v64)
        = Cert.Gcn.convolution (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨(h c _ (mem_uc main_v64 (by decide))).trans (returned m ρ c),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c)⟩)

end Cert.KernelIdeal.Whole

end
-- ==== Proof.lean ====
/-
  A two-layer graph convolution whose two feature-by-weight products run as Pallas regions, against the same convolution
  with the products taken on the host: equal at the ideal values.

  Both programs prepare the graph with the same host operations (messages' sources and targets from the edge table plus
  self-loops, weights from the inverse square-root degrees), and both apply the same two layers (gather along the
  messages, weight, sum at the targets, add the bias; positive part after the first). They differ in two places only:
  where the reference takes the host's product of a 50000-row array with a weight matrix, the kernel program launches a
  region that multiplies 5000 rows at a time into a zero accumulator, after casting both operands to a narrow float
  format. Over the extended reals the casts are the identity and a block of rows of a product is the product of that block
  of rows, so each region leaves the host's whole product in its output array (Proof/Product0, Product1, over
  Proof/LibRowBlockProduct); the layers do not look inside the product they are given (Proof/GcnLayers,
  Proof/KernelStretches), so the two results are one expression of the arguments (Proof/KernelValue, Proof/RefValue). No
  law that needs finite values is used: the precondition is never opened.

  The three frames: the two kernel programs' are the generated frame certificates; the reference's is its run with the
  result dropped. The idealization rewrote nothing, so `preserves` is trivial.
-/
import proofs.«179782_j67757404062361_1_alg».proof.Defs
import proofs.«179782_j67757404062361_1_alg».proof.Proof.Gen.Kernel
import proofs.«179782_j67757404062361_1_alg».proof.Proof.Gen.Kernel.Skeleton
import proofs.«179782_j67757404062361_1_alg».proof.Proof.Gen.Kernel.Launch
import proofs.«179782_j67757404062361_1_alg».proof.Proof.Gen.Kernel.Points
import proofs.«179782_j67757404062361_1_alg».proof.Proof.Gen.Kernel.Frame
import proofs.«179782_j67757404062361_1_alg».proof.Proof.Gen.KernelIdeal
import proofs.«179782_j67757404062361_1_alg».proof.Proof.Gen.KernelIdeal.Skeleton
import proofs.«179782_j67757404062361_1_alg».proof.Proof.Gen.KernelIdeal.Launch
import proofs.«179782_j67757404062361_1_alg».proof.Proof.Gen.KernelIdeal.Points
import proofs.«179782_j67757404062361_1_alg».proof.Proof.Gen.KernelIdeal.Frame
import proofs.«179782_j67757404062361_1_alg».proof.Proof.Gen.ReferenceIdeal
import proofs.«179782_j67757404062361_1_alg».proof.Proof.Gen.Pre_finite_inputs
import proofs.«179782_j67757404062361_1_alg».proof.Proof.RefRun
import proofs.«179782_j67757404062361_1_alg».proof.Proof.RefValue
import proofs.«179782_j67757404062361_1_alg».proof.Proof.KernelRun
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run, the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- Both programs end with the convolution of the (agreeing) arguments in their result buffer. -/
theorem algebraic : Cert.algebraic_KernelIdeal_ReferenceIdeal := by
  intro m ρ m' ρ' _ hagree
  refine ⟨fun c => Cert.Gcn.convolution (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)),
    Cert.KernelIdeal.Whole.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.Whole.result_eq, (hagree c).1, (hagree c).2.1, (hagree c).2.2.1, (hagree c).2.2.2.1,
    (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
